-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S512x512 : Shape := ⟨2, ![512, 512]⟩
abbrev S_ : Shape := ⟨0, ![]⟩
abbrev S16x128 : Shape := ⟨2, ![16, 128]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 17
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S512x512, .i32⟩
  | .hbm, ⟨2, _⟩ => ⟨S512x512, .i32⟩
  | .hbm, ⟨3, _⟩ => ⟨S_, .i32⟩
  | .hbm, ⟨4, _⟩ => ⟨S512x512, .i32⟩
  | .hbm, ⟨5, _⟩ => ⟨S512x512, .i32⟩
  | .hbm, ⟨6, _⟩ => ⟨S512x512, .i1⟩
  | .hbm, ⟨7, _⟩ => ⟨S512x512, .f32⟩
  | .hbm, ⟨8, _⟩ => ⟨S16x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S8x128, .f32⟩
  | .local _ .vmem, ⟨4, _⟩ => ⟨S8x128, .f32⟩
  | .local _ .vmem, ⟨5, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S512x512 : S_.BroadcastsInDim S512x512 (![] : Fin 0 → Fin S512x512.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KPieces.lean ====
/-
  What one grid point leaves behind, as values of what it found. A point in the middle of a group of eight
  leaves in the 1 × 1 running-sum cell the new running sum computed from its two input blocks and the cell's old
  contents; the first point of a group first resets the cell to the zero word and so computes from that; the last
  point of a group does as a middle one and then fills the 8 × 128 output block with the new running sum.
  Each is the body's one covering store read back, its loads reading the whole buffers.
-/
import proofs.«120008_j6605659701675_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F]

/-- The zero offsets, as a constant function. -/
theorem hz : (![0, 0] : Fin 2 → Nat) = fun _ => 0 := funext fun a => by fin_cases a <;> rfl

/-- A middle point: the cell ends at the new running sum of the blocks and its old contents. -/
theorem sB (c : Dev nD) (i : grid0.Coords) (a2 : Memref sig .tc .vmem S512x512 .f32) (h2 : a2.IsWhole)
    (a3 : Memref sig .tc .vmem S512x512 .f32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 x1 : Vec F S512x512 .f32) (xs : Vec F S1x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S512x512) hz,
    View.ld_unit_zero (S := S1x1) hz]

/-- A group's last point leaves the same in the cell. -/
theorem sC (c : Dev nD) (i : grid0.Coords) (a2 : Memref sig .tc .vmem S512x512 .f32) (h2 : a2.IsWhole)
    (a3 : Memref sig .tc .vmem S512x512 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S512x512 .f32) (xs : Vec F S1x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S512x512) hz,
    View.ld_unit_zero (S := S1x1) hz]

/-- A group's first point: the same, computed from the reset value instead of old contents. -/
theorem sA (c : Dev nD) (i : grid0.Coords) (a2 : Memref sig .tc .vmem S512x512 .f32) (h2 : a2.IsWhole)
    (a3 : Memref sig .tc .vmem S512x512 .f32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 x1 : Vec F S512x512 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S512x512) hz]

/-- A group's last point fills the output block from the new running sum (read back from the cell it has
    just stored it into). -/
theorem oC (c : Dev nD) (i : grid0.Coords) (a2 : Memref sig .tc .vmem S512x512 .f32) (h2 : a2.IsWhole)
    (a3 : Memref sig .tc .vmem S512x512 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S512x512 .f32) (xs : Vec F S1x1 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S512x512) hz,
    View.ld_unit_zero (S := S1x1) hz]

end Cert.KernelIdeal.KPieces

end
-- ==== Proof.KPayload.lean ====
/-
  The body's arithmetic read at an index, at the ideal instance. One grid point multiplies its 512 × 512 tile
  entry by entry with the identity mask, sums each row (leaving the row's diagonal entry), squares, exponentiates,
  sums the 512 results, and adds that to the 1 × 1 running sum; the first point of a group starts the running sum
  from the zero word, and the last point of a group copies it to every entry of the 8 × 128 output block.
-/
import proofs.«120008_j6605659701675_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPayload

open Cert.KernelIdeal Cert.KernelIdeal.Gen Idealize.ShloMosaic Idealize.ShloMosaic.ValueIdx

/-- A vector of length a cast to a column [a, 1] reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along a row of a 512 × 512 block, at row r, is the sum of the row's 512 entries. -/
theorem rowsum_apply (v : FVec Ideal S512x512 .f32) (h : S512x512.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 512, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- The sum down a 512 × 1 column is the sum of its 512 entries. -/
theorem colsum_apply (v : FVec Ideal S512x1 .f32) (h : S512x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ k : Fin 512, v (ix2 k u) := by
  refine (Ideal.multiReduction_add_single v 0x00000000#32 h hφ hacc (ix1 u)).trans ?_
  refine Finset.sum_congr rfl fun k _ => congrArg v ?_
  funext a
  match a with
  | ⟨0, _⟩ => rfl
  | ⟨1, _⟩ => rfl

/-- The value the first point of a group resets the running sum to: the zero word, which denotes 0. -/
theorem pay1_apply (j : S1x1.Idx) : k0_pay1 (F := Ideal) j = 0 := by
  unfold k0_pay1
  simp only [shapeCast_self]
  exact Ideal.ofBits_zero_f32

/-- The new running sum: the old one plus, summed over the tile's 512 rows, exp of the square of the row's
    sum of products with the mask. -/
theorem pay2_apply (x0 x1 : Vec Ideal S512x512 .f32) (xs : Vec Ideal S1x1 .f32) :
    k0_pay2 (F := Ideal) x0 x1 xs (ix2 0 0)
      = xs (ix2 0 0) + ∑ r : Fin 512, Ideal.exp ((∑ q : Fin 512, x0 (ix2 r q) * x1 (ix2 r q))
          * (∑ q : Fin 512, x0 (ix2 r q) * x1 (ix2 r q))) := by
  unfold k0_pay2
  simp only [shapeCast_self]
  refine congrArg (xs (ix2 0 0) + ·) ?_
  refine (shapeCast_a_1a_apply _ _ 0 0).trans ?_
  refine (colsum_apply _ _ _ _ 0).trans ?_
  refine Finset.sum_congr rfl fun r _ => ?_
  show Ideal.exp (shapeCast S512x1 _ _ (ix2 r 0) * shapeCast S512x1 _ _ (ix2 r 0)) = _
  rw [shapeCast_a_a1_apply]
  exact congrArg (fun z => Ideal.exp (z * z)) (rowsum_apply _ _ _ _ r)

/-- The output block: the running sum at every one of its 8 × 128 entries. -/
theorem pay3_apply (v : Vec Ideal S1x1 .f32) (a : Fin 8) (b : Fin 128) :
    k0_pay3 (F := Ideal) v (ix2 a b) = v (ix2 0 0) := by
  unfold k0_pay3
  simp only [shapeCast_self]
  refine broadcastTo_apply v _ (ix2 a b) (ix2 0 0) fun ax => ?_
  match ax with
  | ⟨0, _⟩ => rfl
  | ⟨1, _⟩ => rfl

end Cert.KernelIdeal.KPayload

end
-- ==== Proof.TraceSpec.lean ====
/-
  The number both programs compute, and the arithmetic that joins their two arrangements of it.

  For an 8192 × 8192 matrix W of extended reals the reference sums, over EVERY entry (i, j), the value
  exp (Wᵢⱼ²) where i = j and 0 elsewhere; the kernel visits only the sixteen 512 × 512 tiles on the diagonal,
  and per tile sums exp (Wᵢᵢ²) over the tile's 512 diagonal entries, eight tiles into each of two running
  sums which are added at the end. Addition of extended reals is commutative and associative, so all of
  these are one sum, the trace ∑ᵢ exp (Wᵢᵢ²). Both programs then subtract the same constant and square: the
  reference as a power with exponent 2, the kernel as a product; the two agree at every extended real other
  than −∞, which a sum of exponentials minus a finite constant never is.
-/
import Idealize.ShloMosaic.PureOps.Ideal
import Idealize.ShloMosaic.PureOps.Ideal.Laws
import Idealize.ShloMosaic.Lib.ValueIdx

noncomputable section

open scoped BigOperators

namespace Cert.TraceSpec

open Idealize.ShloMosaic Idealize.ShloMosaic.ValueIdx

/-- An 8192 × 8192 matrix of extended reals. -/
abbrev Mat : Type := (⟨2, ![8192, 8192]⟩ : Shape).Idx → EReal

/-- Entry (i, j) by natural-number coordinates; zero outside the matrix, where nothing below reads it. -/
def entry (W : Mat) (i j : ℕ) : EReal :=
  if h : i < 8192 ∧ j < 8192 then W (ix2 ⟨i, h.1⟩ ⟨j, h.2⟩) else 0

/-- The i-th term of the trace: exp (Wᵢᵢ²). -/
def dterm (W : Mat) (i : ℕ) : EReal := Ideal.exp (entry W i i * entry W i i)

/-- The trace of the entrywise exp (W²): ∑ᵢ exp (Wᵢᵢ²). -/
def trace (W : Mat) : EReal := ∑ i : Fin 8192, Ideal.exp (W (ix2 i i) * W (ix2 i i))

/-- The sum of the 512 trace terms of diagonal tile t (rows and columns 512 t … 512 t + 511). -/
def tile (W : Mat) (t : ℕ) : EReal := ∑ r ∈ Finset.range 512, dterm W (512 * t + r)

/-- The running sum after tile n of the group of eight tiles that n lies in (tiles 0 … 7, or 8 … 15):
    the group's tiles from its first up to n. -/
def acc (W : Mat) (n : ℕ) : EReal := ∑ s ∈ Finset.range (n % 8 + 1), tile W (n / 8 * 8 + s)

/-- At a group's first tile the running sum is that tile's sum. -/
theorem acc_first (W : Mat) (n : ℕ) (h : n % 8 = 0) : acc W n = tile W n := by
  unfold acc
  rw [h, Finset.sum_range_one]
  have e : n / 8 * 8 + 0 = n := by omega
  rw [e]

/-- At a later tile it is the running sum before, plus that tile's sum. -/
theorem acc_next (W : Mat) (n : ℕ) (h : ¬n % 8 = 0) : acc W n = acc W (n - 1) + tile W n := by
  unfold acc
  have h1 : (n - 1) % 8 + 1 = n % 8 := by omega
  have h2 : (n - 1) / 8 = n / 8 := by omega
  have h3 : n / 8 * 8 + n % 8 = n := by omega
  rw [Finset.sum_range_succ, h1, h2, h3]

/-- The first k tiles together hold the first 512 k trace terms. -/
theorem sum_tiles (W : Mat) (k : ℕ) :
    ∑ t ∈ Finset.range k, tile W t = ∑ i ∈ Finset.range (512 * k), dterm W i := by
  induction k with
  | zero => rfl
  | succ k ih =>
    rw [Finset.sum_range_succ, ih, Nat.mul_succ, Finset.sum_range_add]
    rfl

/-- The two groups' final running sums add up to the trace. -/
theorem acc_total (W : Mat) : acc W 7 + acc W 15 = trace W := by
  have e7 : acc W 7 = ∑ t ∈ Finset.range 8, tile W t := by
    unfold acc
    exact Finset.sum_congr rfl fun s _ => by rw [show 7 / 8 * 8 + s = s from by omega]
  have e15 : acc W 15 = ∑ s ∈ Finset.range 8, tile W (8 + s) := rfl
  rw [e7, e15, ← Finset.sum_range_add (fun t => tile W t) 8 8, sum_tiles]
  unfold trace
  rw [show 512 * (8 + 8) = 8192 from rfl, ← Fin.sum_univ_eq_sum_range]
  refine Finset.sum_congr rfl fun i _ => ?_
  unfold dterm entry
  rw [dif_pos ⟨i.isLt, i.isLt⟩]

/-- A row of a tile multiplied entry by entry with the same row of the identity mask and summed is the
    row's diagonal entry: every other product is x · 0 = 0 (for every extended real x). -/
theorem masked_row_sum {n : ℕ} (x : Fin n → EReal) (r : Fin n) :
    (∑ q : Fin n, x q * (if r = q then (1 : EReal) else 0)) = x r := by
  simp only [mul_ite, mul_one, mul_zero, Finset.sum_ite_eq, Finset.mem_univ, if_true]

/-- The reference's sum over every entry of "exp (Wᵢⱼ²) on the diagonal, 0 off it" is the trace. -/
theorem diag_sum {n : ℕ} (f : Fin n → Fin n → EReal) :
    (∑ a : Fin n, ∑ b : Fin n, if a = b then f a b else 0) = ∑ a : Fin n, f a a := by
  refine Finset.sum_congr rfl fun a _ => ?_
  simp only [Finset.sum_ite_eq, Finset.mem_univ, if_true]

/-- An exponential is never negative, at the infinities either (exp (−∞) = 0, exp (+∞) = +∞). -/
theorem exp_nonneg (x : EReal) : 0 ≤ Ideal.exp x := by
  induction x using EReal.rec with
  | bot => exact le_of_eq rfl
  | top => exact le_top
  | coe r => exact EReal.coe_nonneg.mpr (Real.exp_pos r).le

theorem trace_nonneg (W : Mat) : 0 ≤ trace W := Finset.sum_nonneg fun _ _ => exp_nonneg _

/-- The word of 2.0 denotes the real 2, and the word of 8192.0 the real 8192. -/
theorem ofBits_two : Ideal.ofBits .f32 0x40000000#32 = ((2 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num

/-- The power with exponent 2 is the product with itself at every extended real but −∞: on the reals
    x² = x · x, and (+∞)² = +∞ = (+∞) · (+∞). -/
theorem pow_two (d : EReal) (hd : d ≠ ⊥) : Ideal.pow d ((2 : ℝ) : EReal) = d * d := by
  induction d using EReal.rec with
  | bot => exact absurd rfl hd
  | top =>
    rw [Ideal.pow_top, if_pos (by exact_mod_cast (by norm_num : (0 : ℝ) < 2))]
    rfl
  | coe r =>
    rw [Ideal.pow_coe_coe, ← EReal.coe_mul]
    exact congrArg _ ((Real.rpow_two r).trans (sq r))

/-- The trace minus a real constant is not −∞. -/
theorem trace_sub_ne_bot (W : Mat) (k : ℝ) : trace W - (k : EReal) ≠ ⊥ := by
  rw [sub_eq_add_neg, ← EReal.coe_neg]
  exact EReal.add_ne_bot_iff.mpr
    ⟨(lt_of_lt_of_le EReal.bot_lt_zero (trace_nonneg W)).ne', EReal.coe_ne_bot _⟩

/-- THE LAW joining the two programs: the reference's (trace − 8192) to the power 2.0 is the kernel's
    product of (sum of the two groups' running sums − 8192) with itself. -/
theorem pow_eq_mul (W : Mat) :
    Ideal.pow (trace W - Ideal.ofBits .f32 0x46000000#32) (Ideal.ofBits .f32 0x40000000#32)
      = (acc W 7 + acc W 15 - Ideal.ofBits .f32 0x46000000#32) * (acc W 7 + acc W 15 - Ideal.ofBits .f32 0x46000000#32) := by
  rw [acc_total, ofBits_two, ofBits_8192]
  exact pow_two _ (trace_sub_ne_bot W 8192)

end Cert.TraceSpec

end
-- ==== Proof.KBlocks.lean ====
/-
  What a grid point's two input blocks hold, entry by entry. Point t of the sixteen reads tile (t, t) of the
  matrix: its entry (r, q) is W at (512 t + r, 512 t + q). The mask is the same 512 × 512 array at every
  point: the host computes it before the launch as "row index = column index" converted to a number, so its
  entry (r, q) is 1 on the diagonal and 0 off it.
-/
import proofs.«120008_j6605659701675_2_alg».proof.Proof.Gen.KernelIdeal.Frame
import proofs.«120008_j6605659701675_2_alg».proof.Proof.TraceSpec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.KBlocks

open Cert.KernelIdeal Cert.KernelIdeal.Gen Idealize.ShloMosaic.ValueIdx

variable (m : (ℓ : Loc nD τ sig) → Buf (Elt Ideal) ℓ)

/-- The matrix argument as the launch finds it on core c. -/
abbrev W (c : Dev nD) : Cert.TraceSpec.Mat := m ((c : Thread nD τ).loc main_arg0)

/-- Point t's block of the matrix is block (t, t); the mask's is always block (0, 0). -/
theorem idx0_facts : ∀ t : Fin cfg0.N, win0_0.index t (0 : Fin 2) = t.val ∧ win0_0.index t (1 : Fin 2) = t.val :=
  (by decide +kernel : ∀ t : Fin grid0.N, win0_0.index t (0 : Fin 2) = t.val ∧ win0_0.index t (1 : Fin 2) = t.val)
theorem idx1_facts : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry (r, q) of point t's matrix block is W at (512 t + r, 512 t + q). -/
theorem iblk0_apply (c : Dev nD) (t : Fin cfg0.N) (r q : Fin 512) :
    iblk m c 0 t (ix2 r q) = Cert.TraceSpec.entry (W m c) (512 * t.val + r.val) (512 * t.val + q.val) := by
  have hN : t.val < 16 := lt_of_lt_of_eq t.isLt N_0
  unfold Cert.TraceSpec.entry
  rw [dif_pos ⟨by omega, by omega⟩]
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [(idx0_facts t).1]; omega
  | ⟨1, _⟩ => show win0_0.index t 1 * 512 + 1 * q.val = 512 * t.val + q.val; rw [(idx0_facts t).2]; omega

/-- The identity mask as the host computes it: "row index + 0 = column index", as a number. -/
def maskArr : S512x512.Idx → Elt Ideal .f32 :=
  uitofp (F := Ideal) .f32 (cmpi .eq (addi (iotaInDim S512x512 32 0)
    (broadcastInDim S512x512 ![] bcast_S_S512x512 (constantI S_ 32 0#32))) (iotaInDim S512x512 32 1))

/-- The mask array as the host leaves it before the launch. -/
theorem V_mask (c : Dev nD) : (V m c main_v5 : S512x512.Idx → Elt Ideal .f32) = maskArr := by
  show StableHlo.after hostOps0 (fun b => m (c, b)) (Proc.devRef .tc main_v5) = _
  unfold maskArr
  after_results

/-- "row = column" as a number, for row and column indices below 512 held in 32-bit words. -/
theorem eye_entry (r q : Fin 512) :
    (((BitVec.ofBool (IntOp.addi (BitVec.ofNat 32 r.val) 0#32 == BitVec.ofNat 32 q.val)).toNat : ℝ) : EReal)
      = if r = q then 1 else 0 := by
  have hne : (BitVec.ofNat 32 r.val = BitVec.ofNat 32 q.val) ↔ r = q := by
    constructor
    · intro h
      have h' := congrArg BitVec.toNat h
      simp only [BitVec.toNat_ofNat] at h'
      exact Fin.ext (by have := r.isLt; have := q.isLt; omega)
    · intro h; rw [h]
  unfold IntOp.addi
  rw [BitVec.add_zero]
  by_cases h : r = q
  · rw [if_pos h, beq_iff_eq.mpr (hne.mpr h)]; simp
  · rw [if_neg h, beq_eq_false_iff_ne.mpr (fun e => h (hne.mp e))]; simp

/-- Entry (r, q) of the mask: 1 if r = q, else 0. -/
theorem mask_apply (r q : Fin 512) : maskArr (ix2 r q) = if r = q then (1 : EReal) else 0 :=
  eye_entry r q

/-- Entry (r, q) of the mask block, at every point: 1 if r = q, else 0. -/
theorem iblk1_apply (c : Dev nD) (t : Fin cfg0.N) (r q : Fin 512) :
    iblk m c 1 t (ix2 r q) = if r = q then (1 : EReal) else 0 := by
  unfold iblk
  rw [View.read_apply]
  show V m c main_v5 _ = _
  rw [V_mask]
  refine Eq.trans (congrArg maskArr (funext fun a => Fin.ext ?_)) (mask_apply r q)
  match a with
  | ⟨0, _⟩ => show win0_1.index t 0 * 512 + 1 * r.val = r.val; rw [(idx1_facts t).1]; omega
  | ⟨1, _⟩ => show win0_1.index t 1 * 512 + 1 * q.val = q.val; rw [(idx1_facts t).2]; omega

end Cert.KernelIdeal.KBlocks

end
-- ==== Proof.KAcc.lean ====
/-
  The running sums, point by point. After grid point n the 1 × 1 cell holds the sum of the trace terms of the
  tiles of n's group of eight from the group's first tile up to tile n: at a group's first point the zero word
  plus that tile's sum, afterwards the cell's contents before plus the point's tile sum, where a tile's sum is
  what the body computes from the point's two blocks (the row sums of tile × mask are the tile's diagonal
  entries). By induction on the point. At a group's last point the output block is filled with that sum.
-/
import proofs.«120008_j6605659701675_2_alg».proof.Proof.KPieces
import proofs.«120008_j6605659701675_2_alg».proof.Proof.KPayload
import proofs.«120008_j6605659701675_2_alg».proof.Proof.KBlocks

noncomputable section

open scoped BigOperators

open Idealize.ShloMosaic Idealize.ShloMosaic.TcCoe Idealize.SL.Sem
open Idealize.ShloMosaic.Pipeline (Dat)

namespace Cert.KernelIdeal.KAcc

open Cert.KernelIdeal Cert.KernelIdeal.Gen Idealize.ShloMosaic.ValueIdx Cert.KernelIdeal.KBlocks

variable (m : (ℓ : Loc nD τ sig) → Buf (Elt Ideal) ℓ)

/-- From blocks that hold tile n of the matrix and the identity mask, the body's new running sum is the old
    one plus tile n's sum of trace terms. -/
theorem tile_of_blocks (Wm : Cert.TraceSpec.Mat) (n : ℕ) (x0 x1 : Vec Ideal S512x512 .f32) (xs : Vec Ideal S1x1 .f32)
    (h0 : ∀ r q : Fin 512, x0 (ix2 r q) = Cert.TraceSpec.entry Wm (512 * n + r.val) (512 * n + q.val))
    (h1 : ∀ r q : Fin 512, x1 (ix2 r q) = if r = q then (1 : EReal) else 0) :
    k0_pay2 (F := Ideal) x0 x1 xs (ix2 0 0) = xs (ix2 0 0) + Cert.TraceSpec.tile Wm n := by
  rw [KPayload.pay2_apply]
  refine congrArg (xs (ix2 0 0) + ·) ?_
  unfold Cert.TraceSpec.tile
  rw [← Fin.sum_univ_eq_sum_range (fun r => Cert.TraceSpec.dterm Wm (512 * n + r)) 512]
  refine Finset.sum_congr rfl fun r _ => ?_
  have e : (∑ q : Fin 512, x0 (ix2 r q) * x1 (ix2 r q))
      = Cert.TraceSpec.entry Wm (512 * n + r.val) (512 * n + r.val) := by
    simp only [h0, h1]
    exact Cert.TraceSpec.masked_row_sum (fun q => Cert.TraceSpec.entry Wm (512 * n + r.val) (512 * n + q.val)) r
  rw [e]
  rfl

/-- The same at point t's own blocks. -/
theorem point_sum (c : Dev nD) (t : Fin cfg0.N) (xs : Vec Ideal S1x1 .f32) :
    k0_pay2 (F := Ideal) (iblk m c 0 t) (iblk m c 1 t) xs (ix2 0 0) = xs (ix2 0 0) + Cert.TraceSpec.tile (W m c) t.val :=
  tile_of_blocks (W m c) t.val (iblk m c 0 t) (iblk m c 1 t) xs (iblk0_apply m c t) (iblk1_apply m c t)

/-- A group's first point leaves that tile's sum in the cell. -/
theorem cell_first (c : Dev nD) (t : Fin cfg0.N) (h0 : t.val % 8 = 0) :
    (outsAt0 m c t.val t.isLt).2 (ix2 0 0) = Cert.TraceSpec.acc (W m c) t.val := by
  have h1 : ¬t.val % 8 = 7 := by omega
  rw [outsAt0_A m c t h0 h1]
  dsimp only
  refine (congrFun (KPieces.sA (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 0 0)).trans ?_
  refine (point_sum m c t (k0_pay1 (F := Ideal))).trans ?_
  rw [KPayload.pay1_apply, zero_add, Cert.TraceSpec.acc_first _ _ h0]

/-- A middle point adds its tile's sum to what the point before left. -/
theorem cell_middle (c : Dev nD) (t : Fin cfg0.N) (h0 : ¬t.val % 8 = 0) (h1 : ¬t.val % 8 = 7)
    (ih : (outsAt0 m c (t.val - 1) (Nat.lt_of_le_of_lt (Nat.sub_le _ _) t.isLt)).2 (ix2 0 0) = Cert.TraceSpec.acc (W m c) (t.val - 1)) :
    (outsAt0 m c t.val t.isLt).2 (ix2 0 0) = Cert.TraceSpec.acc (W m c) t.val := by
  rw [outsAt0_B m c t h0 h1]
  dsimp only
  refine (congrFun (KPieces.sB (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 0 0)).trans ?_
  refine (point_sum m c t _).trans ?_
  rw [ih, Cert.TraceSpec.acc_next _ _ h0]

/-- So does a group's last point. -/
theorem cell_last (c : Dev nD) (t : Fin cfg0.N) (h0 : ¬t.val % 8 = 0) (h1 : t.val % 8 = 7)
    (ih : (outsAt0 m c (t.val - 1) (Nat.lt_of_le_of_lt (Nat.sub_le _ _) t.isLt)).2 (ix2 0 0) = Cert.TraceSpec.acc (W m c) (t.val - 1)) :
    (outsAt0 m c t.val t.isLt).2 (ix2 0 0) = Cert.TraceSpec.acc (W m c) t.val := by
  rw [outsAt0_C m c t h0 h1]
  dsimp only
  refine (congrFun (KPieces.sC (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 0 0)).trans ?_
  refine (point_sum m c t _).trans ?_
  rw [ih, Cert.TraceSpec.acc_next _ _ h0]

/-- After every point the cell holds the group's running sum up to that point's tile. -/
theorem cell_eq (c : Dev nD) : ∀ (n : ℕ) (h : n < cfg0.N), (outsAt0 m c n h).2 (ix2 0 0) = Cert.TraceSpec.acc (W m c) n
  | 0, h => cell_first m c ⟨0, h⟩ rfl
  | n + 1, h => by
    by_cases h0 : (n + 1) % 8 = 0
    · exact cell_first m c ⟨n + 1, h⟩ h0
    · by_cases h1 : (n + 1) % 8 = 7
      · exact cell_last m c ⟨n + 1, h⟩ h0 h1 (cell_eq c n _)
      · exact cell_middle m c ⟨n + 1, h⟩ h0 h1 (cell_eq c n _)

/-- At a group's last point every entry of the output block is the group's whole sum. -/
theorem out_last (c : Dev nD) (t : Fin cfg0.N) (h1 : t.val % 8 = 7) (a : Fin 8) (b : Fin 128) :
    (outsAt0 m c t.val t.isLt).1 (ix2 a b) = Cert.TraceSpec.acc (W m c) t.val := by
  have h0 : ¬t.val % 8 = 0 := by omega
  rw [outsAt0_C m c t h0 h1]
  dsimp only
  refine (congrFun (KPieces.oC (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 a b)).trans ?_
  refine (KPayload.pay3_apply _ a b).trans ?_
  refine (point_sum m c t _).trans ?_
  rw [cell_eq m c (t.val - 1) _, Cert.TraceSpec.acc_next _ _ h0]

/-- The same at any index of the block. -/
theorem out_last_idx (c : Dev nD) (t : Fin cfg0.N) (h1 : t.val % 8 = 7) (j : S8x128.Idx) :
    (outsAt0 m c t.val t.isLt).1 j = Cert.TraceSpec.acc (W m c) t.val := by
  obtain ⟨a, b, rfl⟩ : ∃ (a : Fin 8) (b : Fin 128), j = ix2 a b := ⟨j 0, j 1, eq_ix2 j⟩
  exact out_last m c t h1 a b

end Cert.KernelIdeal.KAcc

end
-- ==== Proof.KValue.lean ====
/-
  The output array after the launch, and the number the host lines after it compute from it. Each group's last
  point (points 7 and 15) writes its 8 × 128 block back: rows 0 … 7 of the 16 × 128 array end holding the first
  group's whole sum at every entry, rows 8 … 15 the second group's. The host then takes entries (0, 0) and (8, 0),
  adds them, subtracts the constant and multiplies the difference by itself.
-/
import proofs.«120008_j6605659701675_2_alg».proof.Proof.KAcc
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.KernelIdeal.KBlocks

variable (m : (ℓ : Loc nD τ sig) → Buf (Elt Ideal) ℓ) (ρ : Dev nD → PrngReg)

/-- The output array's final contents: at row i₀ the whole sum of the group that writes that row's block
    (the running sum after the group's last tile, 8 ⌊i₀ / 8⌋ + 7). -/
def outArr (c : Dev nD) : S16x128.Idx → Elt Ideal .f32 :=
  fun i => Cert.TraceSpec.acc (W m c) (8 * ((i 0).val / 8) + 7)

/-- Point t's output block is block (⌊t / 8⌋, 0). -/
theorem idx2_facts : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a writing point writes back is its block of those contents. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  show (cfg0.win 2).cut (grid0.coords t) ((dats m 0 c).after 2 t) = _
  rw [after0_2]
  funext j
  have hj : (j 0).val < 8 := (j 0).isLt
  refine (KAcc.out_last_idx m c t h7 j).trans ?_
  show Cert.TraceSpec.acc (W m c) t.val
    = Cert.TraceSpec.acc (W m c) (8 * ((win0_2.index t (0 : Fin 2) * 8 + 1 * (j 0).val) / 8) + 7)
  rw [(idx2_facts t).1]
  congr 1
  omega

/-- An index of the array lies in point t's block iff each coordinate lies in the block's range. -/
theorem mem_blk (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v6).slice (win0_2.rect t)).set ↔ _
  rw [View.set_slice_whole, Rect.mem_set_unit]
  exact Iff.rfl

/-- Every index of the array lies in the block of its row group's last point. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have ht : 8 * ((i 0).val / 8) + 7 < cfg0.N := by rw [show cfg0.N = 16 from N_0]; omega
  have e0 : win0_2.index ⟨_, ht⟩ (0 : Fin 2) = (8 * ((i 0).val / 8) + 7) / 8 := (idx2_facts ⟨_, ht⟩).1
  have e1 : win0_2.index ⟨_, ht⟩ (1 : Fin 2) = 0 := (idx2_facts ⟨_, ht⟩).2
  refine ⟨⟨_, ht⟩, (flush0_2 _).mpr (by show (8 * ((i 0).val / 8) + 7) % 8 = 7; omega), ?_⟩
  rw [mem_blk]
  intro a
  match a with
  | ⟨0, _⟩ =>
    show win0_2.index ⟨_, ht⟩ (0 : Fin 2) * 8 ≤ (i 0).val ∧ (i 0).val < win0_2.index ⟨_, ht⟩ (0 : Fin 2) * 8 + 8
    rw [e0]; omega
  | ⟨1, _⟩ =>
    show win0_2.index ⟨_, ht⟩ (1 : Fin 2) * 128 ≤ (i 1).val ∧ (i 1).val < win0_2.index ⟨_, ht⟩ (1 : Fin 2) * 128 + 128
    rw [e1]; omega

/-- So the output array ends holding those contents. -/
theorem final (c : Dev nD) : (dats m 0 c).arrAt 2 cfg0.N = outArr m c :=
  (dats m 0 c).arrAt_eq_of_cover 2 (outArr m c) (flushed_eq m c) cover

end Cert.KernelIdeal.KValue

end
-- ==== Proof.KTail.lean ====
/-
  The host lines after the launch, and the kernel program's run with its result named. The host reads entries
  (0, 0) and (8, 0) of the 16 × 128 output array — the two groups' whole sums —, adds them, subtracts the
  constant, and multiplies the difference by itself: (s₀ + s₁ − 8192) · (s₀ + s₁ − 8192).
-/
import proofs.«120008_j6605659701675_2_alg».proof.Proof.KValue
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KTail

open Cert.KernelIdeal Cert.KernelIdeal.Gen Idealize.ShloMosaic.ValueIdx Cert.KernelIdeal.KBlocks Cert.KernelIdeal.KValue

variable (m : (ℓ : Loc nD τ sig) → Buf (Elt Ideal) ℓ) (ρ : Dev nD → PrngReg)

/-- Entry (0, 0) plus entry (8, 0) of the output array, minus the constant. -/
def diffFn (X : S16x128.Idx → Elt Ideal .f32) : FVec Ideal S_ .f32 :=
  subf (addf (shapeCast S_ (extractStridedSlice S1x1 ![0, 0] X slices_S16x128_S1x1_0_0) shapeCasts_S1x1_S_)
      (shapeCast S_ (extractStridedSlice S1x1 ![8, 0] X slices_S16x128_S1x1_8_0) shapeCasts_S1x1_S_))
    (constant S_ .f32 0x46000000#32)

/-- That difference times itself: the program's result as a function of the output array. -/
def tailFn (X : S16x128.Idx → Elt Ideal .f32) : FVec Ideal S_ .f32 :=
  mulf (diffFn X) (diffFn X)

/-- The host lines after the launch compute that function of the output array's final contents. -/
theorem tail_eq (c : Dev nD) :
    Pipeline.afterTail₀ cfgs (dats m) 0 (V0 m) [hostOps1] c main_v13 = tailFn (outArr m c) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v6)
      = outArr m c := (Pipeline.withArrays_arr spec0 launch0.win.arr_inj c _ _ 2).trans (final m c)
  rw [e]
  rfl

/-- The one-entry slice at row o, column 0, cast to a scalar, is the array's entry (o, 0). -/
theorem pick_apply (X : S16x128.Idx → Elt Ideal .f32) (o : Fin 16) (h : S16x128.Slices ![o.val, 0] S1x1)
    (j : S_.Idx) : shapeCast S_ (extractStridedSlice S1x1 ![o.val, 0] X h) shapeCasts_S1x1_S_ j = X (ix2 o (0 : Fin 128)) := by
  have h1 : (S_.rowMajor j).val < 1 := (S_.rowMajor j).isLt
  have h2 : (S1x1.rowMajor (ix2 (0 : Fin 1) (0 : Fin 1))).val = 0 := by rw [Shape.rowMajor_val_two]; rfl
  refine (shapeCast_apply _ _ j (ix2 (0 : Fin 1) (0 : Fin 1)) (h2.trans (Nat.lt_one_iff.mp h1).symm)).trans
    (extractStridedSlice_apply _ X h (ix2 (0 : Fin 1) (0 : Fin 1)) (ix2 o (0 : Fin 128)) fun a => ?_)
  match a with
  | ⟨0, _⟩ => rfl
  | ⟨1, _⟩ => rfl

/-- The result at its one index, from the two entries read. -/
theorem tailFn_apply (X : S16x128.Idx → Elt Ideal .f32) (j : S_.Idx) :
    tailFn X j = (X (ix2 (0 : Fin 16) (0 : Fin 128)) + X (ix2 (8 : Fin 16) (0 : Fin 128)) - Ideal.ofBits .f32 0x46000000#32)
      * (X (ix2 (0 : Fin 16) (0 : Fin 128)) + X (ix2 (8 : Fin 16) (0 : Fin 128)) - Ideal.ofBits .f32 0x46000000#32) := by
  have e0 := pick_apply X (0 : Fin 16) slices_S16x128_S1x1_0_0 j
  have e8 := pick_apply X (8 : Fin 16) slices_S16x128_S1x1_8_0 j
  unfold tailFn diffFn
  show (shapeCast S_ (extractStridedSlice S1x1 ![0, 0] X slices_S16x128_S1x1_0_0) shapeCasts_S1x1_S_ j
        + shapeCast S_ (extractStridedSlice S1x1 ![8, 0] X slices_S16x128_S1x1_8_0) shapeCasts_S1x1_S_ j
        - Ideal.ofBits .f32 0x46000000#32)
      * (shapeCast S_ (extractStridedSlice S1x1 ![0, 0] X slices_S16x128_S1x1_0_0) shapeCasts_S1x1_S_ j
        + shapeCast S_ (extractStridedSlice S1x1 ![8, 0] X slices_S16x128_S1x1_8_0) shapeCasts_S1x1_S_ j
        - Ideal.ofBits .f32 0x46000000#32) = _
  rw [show shapeCast S_ (extractStridedSlice S1x1 ![0, 0] X slices_S16x128_S1x1_0_0) shapeCasts_S1x1_S_ j
        = X (ix2 (0 : Fin 16) (0 : Fin 128)) from e0,
    show shapeCast S_ (extractStridedSlice S1x1 ![8, 0] X slices_S16x128_S1x1_8_0) shapeCasts_S1x1_S_ j
        = X (ix2 (8 : Fin 16) (0 : Fin 128)) from e8]

/-- The two entries the host reads are the two groups' whole sums. -/
theorem outArr_0 (c : Dev nD) : outArr m c (ix2 (0 : Fin 16) (0 : Fin 128)) = Cert.TraceSpec.acc (W m c) 7 := rfl
theorem outArr_8 (c : Dev nD) : outArr m c (ix2 (8 : Fin 16) (0 : Fin 128)) = Cert.TraceSpec.acc (W m c) 15 := rfl

/-- The kernel program's result, at its one index: (s₀ + s₁ − 8192) · (s₀ + s₁ − 8192) with s₀, s₁ the two
    groups' whole sums. -/
theorem result_apply (c : Dev nD) (j : S_.Idx) :
    tailFn (outArr m c) j
      = (Cert.TraceSpec.acc (W m c) 7 + Cert.TraceSpec.acc (W m c) 15 - Ideal.ofBits .f32 0x46000000#32)
        * (Cert.TraceSpec.acc (W m c) 7 + Cert.TraceSpec.acc (W m c) 15 - Ideal.ofBits .f32 0x46000000#32) := by
  rw [tailFn_apply, outArr_0, outArr_8]

/-- Every weakly fair execution of the kernel program terminates with its result at that function of the
    output array's final contents, and the matrix argument unchanged. -/
theorem run : θ_run defs (onTc (τ := τ) (main (F := Ideal))) ⟨m, fun _ => 0, ρ⟩ fun r => ∀ c : Dev nD,
      r.2.mem ((c : Thread nD τ).loc main_v13) = tailFn (outArr m c)
      ∧ r.2.mem ((c : Thread nD τ).loc main_arg0) = m ((c : Thread nD τ).loc main_arg0) :=
  (θ_run defs _ _).mono (fun _ h c => ⟨((h c).2 main_v13 (by decide)).trans (tail_eq m c),
      ((h c).1 0).trans (((dats m 0 c).arrAt_in 0 rfl _).trans ((A_eq m c 0).trans (V_main_arg0 m c)))⟩)
    (run_main m ρ)

end Cert.KernelIdeal.KTail

end
-- ==== Proof.RefRun.lean ====
/- The reference program's run: @main, with the outlined function @trace and the function @_where it calls
   unfolded at their call sites, is a straight line of seventeen host operations. Every weakly
   fair execution terminates with the result buffer at the operations' composed pure term of the argument's
   launch contents (`refTerm`), the argument unchanged. -/
import proofs.«120008_j6605659701675_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- What the program computes from its argument `W`: the square of (the sum of `exp (W * W)` over the diagonal,
    written as the sum over all index pairs of the entry where row equals column and zero elsewhere, minus 8192).
    Each operation is kept as the program states it: the row and column iotas, the comparison of row plus zero
    with column, the select against a broadcast zero, the sum over both axes from zero, the subtraction of the
    constant and the power with exponent two. -/
def refTerm (W : FVec F S8192x8192 .f32) : FVec F S_ .f32 :=
  Host.powf
    (subf
      (Host.reduceAdd
        (select
          (cmpi .eq
            (addi (iotaInDim S8192x8192 32 0)
              (broadcastInDim S8192x8192 ![] bcast_S_S8192x8192 (constantI S_ 32 0#32)))
            (iotaInDim S8192x8192 32 1))
          (Host.exp (mulf W W))
          (broadcastInDim S8192x8192 ![] bcast_S_S8192x8192 (constant S_ .f32 0x00000000#32)))
        (constant S_ .f32 0x00000000#32) reducesTo_S8192x8192_S_d0_1 h_S_)
      (constant S_ .f32 0x46000000#32))
    (constant S_ .f32 0x40000000#32)

/-- @main's seventeen operations in order, the two calls unfolded: the product and the exponential, then
    @trace's eleven over its call's buffers (the two iotas, the integer zero and its broadcast, the sum, the
    comparison, the float zero and its broadcast, @_where's select, the second float zero, the sum over both
    axes), then the constant 8192, the subtraction, the constant 2 and the power. -/
abbrev ops : List (HloOp τ sig (Elt F)) :=
  [ binary main_arg0 main_arg0 main_v0 (mulf : (⟨S8192x8192, .f32⟩ : BufTy).Contents (Elt F) → (⟨S8192x8192, .f32⟩ : BufTy).Contents (Elt F) → (⟨S8192x8192, .f32⟩ : BufTy).Contents (Elt F)),
    unary main_v0 main_v1 (Host.exp : (⟨S8192x8192, .f32⟩ : BufTy).Contents (Elt F) → (⟨S8192x8192, .f32⟩ : BufTy).Contents (Elt F)),
    TRef.nullary main_call0.v0 (iotaInDim S8192x8192 32 0),
    TRef.nullary main_call0.v1 (iotaInDim S8192x8192 32 1),
    TRef.nullary main_call0.c (constantI S_ 32 0#32),
    TRef.unary main_call0.c main_call0.v2 (broadcastInDim S8192x8192 ![] bcast_S_S8192x8192),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S8192x8192 ![] bcast_S_S8192x8192),
    TRef.ternary main_call0.v4 (.of main_v1) main_call0.v5 main_call0.call0.v0 select,
    TRef.nullary main_call0.cst_0 (constant S_ .f32 0x00000000#32),
    TRef.binary main_call0.call0.v0 main_call0.cst_0 main_call0.v7 (fun x v => Host.reduceAdd x v reducesTo_S8192x8192_S_d0_1 h_S_),
    nullary main_cst (constant S_ .f32 0x46000000#32),
    binary main_v2 main_cst main_v3 (subf : (⟨S_, .f32⟩ : BufTy).Contents (Elt F) → (⟨S_, .f32⟩ : BufTy).Contents (Elt F) → (⟨S_, .f32⟩ : BufTy).Contents (Elt F)),
    nullary main_cst_0 (constant S_ .f32 0x40000000#32),
    binary main_v3 main_cst_0 main_v4 (Host.powf : (⟨S_, .f32⟩ : BufTy).Contents (Elt F) → (⟨S_, .f32⟩ : BufTy).Contents (Elt F) → (⟨S_, .f32⟩ : BufTy).Contents (Elt F)) ]

set_option maxRecDepth 1024 in
/-- @main is that straight line: with the two functions' definitions unfolded at their calls and the records at
    their fields, both sides are one chain of host steps once sequencing is reassociated. -/
theorem main_eq (c : Dev nD) : main (F := F) c = seq ops := by
  simp only [main, fn_trace.body, fn_where.body, seq, bind_assoc, pure_bind]

attribute [local irreducible] Host.reduceAdd Host.exp Host.powf mulf subf select cmpi addi iotaInDim broadcastInDim constant constantI in
set_option maxRecDepth 4096 in
/-- The fold of the seventeen operations at the result buffer is `refTerm` of the argument's contents, by
    computation: each operation's result decides whether the buffer read is the one it writes, and the typed
    references' transports are the identity at these literal references. The pure operations stay folded
    throughout: the equation never looks inside them, and their operands have 8192 × 8192 elements. -/
theorem out_eq (V : Valuation τ sig (Elt F)) :
    after ops V (main_v4 : DevRef τ sig) = refTerm (V (main_arg0 : DevRef τ sig)) := by
  simp only [after_cons, after_nil]
  rfl

attribute [local irreducible] Host.reduceAdd Host.exp Host.powf mulf subf select cmpi addi iotaInDim broadcastInDim constant constantI in
/-- No operation writes the argument's buffer: the fold leaves it at its launch contents. -/
theorem arg0_eq (V : Valuation τ sig (Elt F)) :
    after ops V (main_arg0 : DevRef τ sig) = V (main_arg0 : DevRef τ sig) := by
  simp only [after_cons, after_nil]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., nullary_bufs_sub .., binary_bufs_sub .., nullary_bufs_sub .., binary_bufs_sub ..⟩

/-- On every device, for any float values, from any memory with zero counters: every weakly fair execution of
    @main terminates with the result buffer at `refTerm` of the argument's launch contents, and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/- The reference's term read at the extended reals. The reference sums, over every index pair (a, b) of an
   8192 × 8192 matrix W, the value exp (W a b · W a b) where the 32-bit words of a + 0 and b are equal, and 0
   elsewhere, starting from 0; it subtracts the constant 8192.0 and raises the difference to the power 2.0. Two
   naturals below 8192 have equal 32-bit words exactly when they are equal, so only the diagonal terms remain:
   the value is (∑ᵢ exp (Wᵢᵢ · Wᵢᵢ) − 8192.0) to the power 2.0, at the one index of the rank-0 result. -/
import proofs.«120008_j6605659701675_2_alg».proof.Proof.RefRun
import proofs.«120008_j6605659701675_2_alg».proof.Proof.TraceSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- For a, b < 8192 < 2³², the 32-bit comparison of the word of a plus the zero word with the word of b is the
    bit 1 exactly when a = b: adding zero changes nothing, and two naturals below 2³² have equal words only if
    they are equal. -/
theorem diag_bit (a b : Fin 8192) :
    IntOp.cmpi .eq (IntOp.addi (BitVec.ofNat 32 a.val) 0#32) (BitVec.ofNat 32 b.val) = if a = b then 1#1 else 0#1 := by
  have ha := a.isLt
  have hb := b.isLt
  show BitVec.ofBool (BitVec.ofNat 32 a.val + 0#32 == BitVec.ofNat 32 b.val) = _
  rw [BitVec.add_zero]
  by_cases h : a = b
  · subst h
    rw [if_pos rfl, beq_self_eq_true]
    rfl
  · have hne : BitVec.ofNat 32 a.val ≠ BitVec.ofNat 32 b.val := by
      intro heq
      have h2 := congrArg BitVec.toNat heq
      rw [BitVec.toNat_ofNat, BitVec.toNat_ofNat] at h2
      exact h (Fin.ext (by omega))
    rw [if_neg h, beq_false_of_ne hne]
    rfl

/-- The reference's mask at row a, column b — the comparison of (row index + broadcast zero) with the column
    index — is the bit 1 on the diagonal and 0 off it. -/
theorem cond_apply (a b : Fin 8192) :
    cmpi .eq
        (addi (iotaInDim S8192x8192 32 0)
          (broadcastInDim S8192x8192 ![] bcast_S_S8192x8192 (constantI S_ 32 0#32)))
        (iotaInDim S8192x8192 32 1) (ix2 a b)
      = if a = b then 1#1 else 0#1 :=
  diag_bit a b

/-- The masked matrix at row a, column b: exp (W a b · W a b) on the diagonal, the real 0 (the value of the zero
    word) off it. -/
theorem elem_apply (W : FVec Ideal S8192x8192 .f32) (a b : Fin 8192) :
    select
        (cmpi .eq
          (addi (iotaInDim S8192x8192 32 0)
            (broadcastInDim S8192x8192 ![] bcast_S_S8192x8192 (constantI S_ 32 0#32)))
          (iotaInDim S8192x8192 32 1))
        (Host.exp (F := Ideal) (mulf W W))
        (broadcastInDim S8192x8192 ![] bcast_S_S8192x8192 (constant (F := Ideal) S_ .f32 0x00000000#32))
        (ix2 a b)
      = if a = b then Ideal.exp (W (ix2 a b) * W (ix2 a b)) else 0 := by
  rw [select_apply, cond_apply]
  by_cases h : a = b
  · rw [if_pos h, if_pos h, select_one]
    rfl
  · rw [if_neg h, if_neg h, select_zero]
    exact Ideal.ofBits_zero_f32

/-- The sum over both axes of the masked matrix, from the zero word, is the trace ∑ᵢ exp (Wᵢᵢ · Wᵢᵢ): a sum into
    the rank-0 shape is the initial value (here 0) plus the sum over every index; that sum is the double sum over
    rows and columns, whose inner sum keeps the diagonal term alone. -/
theorem reduce_apply (W : FVec Ideal S8192x8192 .f32) (j : S_.Idx) :
    Host.reduceAdd (F := Ideal)
        (select
          (cmpi .eq
            (addi (iotaInDim S8192x8192 32 0)
              (broadcastInDim S8192x8192 ![] bcast_S_S8192x8192 (constantI S_ 32 0#32)))
            (iotaInDim S8192x8192 32 1))
          (Host.exp (F := Ideal) (mulf W W))
          (broadcastInDim S8192x8192 ![] bcast_S_S8192x8192 (constant (F := Ideal) S_ .f32 0x00000000#32)))
        (constant (F := Ideal) S_ .f32 0x00000000#32) reducesTo_S8192x8192_S_d0_1 h_S_ j
      = ∑ i : Fin 8192, Ideal.exp (W (ix2 i i) * W (ix2 i i)) := by
  unfold Host.reduceAdd
  rw [Ideal.hostReduceAdd_def, Ideal.hostReduceAdd_total _ (fun b => b.elim0), constant_apply,
    Ideal.ofBits_zero_f32, zero_add, sum_idx2]
  conv_lhs =>
    arg 2; ext a; arg 2; ext b
    rw [elem_apply W a b]
  exact Cert.TraceSpec.diag_sum fun a b => Ideal.exp (W (ix2 a b) * W (ix2 a b))

/-- At the extended reals the reference's result, at its one index, is (∑ᵢ exp (Wᵢᵢ · Wᵢᵢ) − the value of the
    word of 8192.0) to the power of the value of the word of 2.0. -/
theorem refTerm_apply (W : FVec Ideal S8192x8192 .f32) :
    RefRun.refTerm (F := Ideal) W
      = fun _ => Ideal.pow ((∑ i : Fin 8192, Ideal.exp (W (ix2 i i) * W (ix2 i i))) - Ideal.ofBits .f32 0x46000000#32)
          (Ideal.ofBits .f32 0x40000000#32) := by
  funext j
  unfold RefRun.refTerm
  show Ideal.pow
      (Host.reduceAdd (F := Ideal) _ _ reducesTo_S8192x8192_S_d0_1 h_S_ j - Ideal.ofBits .f32 0x46000000#32)
      (Ideal.ofBits .f32 0x40000000#32) = _
  rw [reduce_apply]

/-- The same with the diagonal sum named: the reference's result is (trace W − 8192.0) to the power 2.0. -/
theorem refTerm_apply_trace (W : FVec Ideal S8192x8192 .f32) :
    RefRun.refTerm (F := Ideal) W
      = fun _ => Ideal.pow (Cert.TraceSpec.trace W - Ideal.ofBits .f32 0x46000000#32) (Ideal.ofBits .f32 0x40000000#32) :=
  refTerm_apply W

end Cert.ReferenceIdeal.RefValue

end
-- ==== Proof.lean ====
/-
  The kernel program and its reference compute one number at the extended reals.

  For an 8192 × 8192 matrix W the reference takes exp (W ∘ W) entrywise, keeps the diagonal (a select against
  "row index = column index", zero elsewhere), sums every entry, subtracts 8192 and raises the difference to the
  power 2. The kernel visits only the sixteen 512 × 512 diagonal tiles, in two groups of eight: per tile it
  multiplies by the identity mask and sums each row, which leaves the row's diagonal entry (every other product
  is x · 0 = 0); squares, exponentiates and sums those 512 numbers; and adds the tile's sum to its group's running
  sum. Each group's last tile writes the group's sum out; the host adds the two, subtracts 8192 and multiplies
  the difference by itself. Sums of extended reals may be regrouped freely, so both sums are the trace
  ∑ᵢ exp (Wᵢᵢ²); and d to the power 2 is d · d at every extended real except −∞, which a sum of exponentials
  minus a finite constant is not. No use is made of the inputs being finite.

  The three frames are the programs' runs with the results dropped; the idealization rewrote nothing, so that
  claim is trivial.
-/
import proofs.«120008_j6605659701675_2_alg».proof.Defs
import proofs.«120008_j6605659701675_2_alg».proof.Proof.Gen.Kernel
import proofs.«120008_j6605659701675_2_alg».proof.Proof.Gen.Kernel.Skeleton
import proofs.«120008_j6605659701675_2_alg».proof.Proof.Gen.Kernel.Launch
import proofs.«120008_j6605659701675_2_alg».proof.Proof.Gen.Kernel.Points
import proofs.«120008_j6605659701675_2_alg».proof.Proof.Gen.Kernel.Frame
import proofs.«120008_j6605659701675_2_alg».proof.Proof.Gen.KernelIdeal
import proofs.«120008_j6605659701675_2_alg».proof.Proof.Gen.KernelIdeal.Skeleton
import proofs.«120008_j6605659701675_2_alg».proof.Proof.Gen.KernelIdeal.Launch
import proofs.«120008_j6605659701675_2_alg».proof.Proof.Gen.KernelIdeal.Points
import proofs.«120008_j6605659701675_2_alg».proof.Proof.Gen.KernelIdeal.Frame
import proofs.«120008_j6605659701675_2_alg».proof.Proof.Gen.ReferenceIdeal
import proofs.«120008_j6605659701675_2_alg».proof.Proof.Gen.Pre_finite_inputs
import proofs.«120008_j6605659701675_2_alg».proof.Proof.KTail
import proofs.«120008_j6605659701675_2_alg».proof.Proof.RefValue
import Idealize.ShloMosaic.Adequacy
import Idealize.ShloMosaic.Init

noncomputable section

namespace Cert.Proof

open Idealize.ShloMosaic Idealize.SL.Sem

/-- The word-level kernel program runs, and leaves its argument as it found it. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the matrix, the kernel program ends at (s₀ + s₁ − 8192) · (s₀ + s₁ − 8192), with
    s₀ and s₁ its two groups' sums, and the reference at (trace − 8192) to the power 2: one extended real, since
    s₀ + s₁ is the trace and the difference is never −∞. -/
theorem algebraic : Cert.algebraic_KernelIdeal_ReferenceIdeal := by
  intro m ρ m' ρ' _ hagree
  refine ⟨fun c => Cert.KernelIdeal.KTail.tailFn (Cert.KernelIdeal.KValue.outArr m c), Cert.KernelIdeal.KTail.run m ρ, ?_⟩
  refine (θ_run Cert.ReferenceIdeal.defs _ _).mono (fun _ h c => ⟨(h c).1.trans ?_, (h c).2⟩)
    (Cert.ReferenceIdeal.RefRun.run (F := Ideal) m' ρ')
  rw [hagree c, Cert.ReferenceIdeal.RefValue.refTerm_apply_trace]
  funext j
  exact (Cert.TraceSpec.pow_eq_mul _).trans (Cert.KernelIdeal.KTail.result_apply m c j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
